-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x256x128x128 : Shape := ⟨4, ![8, 256, 128, 128]⟩
abbrev S262144x128 : Shape := ⟨2, ![262144, 128]⟩
abbrev S16384x128 : Shape := ⟨2, ![16384, 128]⟩

abbrev nBuf : Space → Nat
  | .hbm => 6
  | .vmem => 6
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S262144x128, .f32⟩
  | .hbm, ⟨3, _⟩ => ⟨S262144x128, .f32⟩
  | .hbm, ⟨4, _⟩ => ⟨S262144x128, .f32⟩
  | .hbm, ⟨5, _⟩ => ⟨S8x256x128x128, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S16384x128, .f32⟩
  | .local _ .vmem, ⟨5, _⟩ => ⟨S16384x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x256x128x128_S262144x128 : S8x256x128x128.ShapeCasts S262144x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  rotates_S16384x128_d1 : S16384x128.Rotates 1 none
  iota_S16384x128_d1_w32 : S16384x128.Iotas .tc 32 [1]
  shapeCasts_S262144x128_S8x256x128x128 : S262144x128.ShapeCasts S8x256x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .f32 = 32 ∨ (Rect.block (s := S262144x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S262144x128.size a
  hwx0_2 : ∀ i : grid0.Coords, EltTy.bits .f32 = 32 ∨ (Rect.block (s := S262144x128) S16384x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S8x256x128x1 : Shape := ⟨4, ![8, 256, 128, 1]⟩
abbrev S_ : Shape := ⟨0, ![]⟩
abbrev S8x256x128x127 : Shape := ⟨4, ![8, 256, 128, 127]⟩
abbrev S1 : Shape := ⟨1, ![1]⟩
abbrev S8x256x128 : Shape := ⟨3, ![8, 256, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x256x128x1, .f32⟩
  | .hbm, ⟨3, _⟩ => ⟨S_, .f32⟩
  | .hbm, ⟨4, _⟩ => ⟨S8x256x128x1, .f32⟩
  | .hbm, ⟨5, _⟩ => ⟨S8x256x128x127, .f32⟩
  | .hbm, ⟨6, _⟩ => ⟨S8x256x128x128, .f32⟩
  | .hbm, ⟨7, _⟩ => ⟨S8x256x128x128, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S8x256x128, .f32⟩
  | .hbm, ⟨12, _⟩ => ⟨S8x256x128x128, .f32⟩
  | .hbm, ⟨13, _⟩ => ⟨S8x256x128x128, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  slices_S8x256x128x128_S8x256x128x1_0_0_0_0 : S8x256x128x128.Slices ![0, 0, 0, 0] S8x256x128x1
  bcast_S_S8x256x128x1 : S_.BroadcastsInDim S8x256x128x1 (![] : Fin 0 → Fin S8x256x128x1.rank)
  slices_S8x256x128x128_S8x256x128x127_0_0_0_0 : S8x256x128x128.Slices ![0, 0, 0, 0] S8x256x128x127
  concatenates_S8x256x128x1_S8x256x128x127_S8x256x128x128_d3 : Shape.Concatenates [S8x256x128x1, S8x256x128x127] S8x256x128x128 3
  bcast_S_S1 : S_.BroadcastsInDim S1 (![] : Fin 0 → Fin S1.rank)
  bcast_S_S8x256x128 : S_.BroadcastsInDim S8x256x128 (![] : Fin 0 → Fin S8x256x128.rank)
  scatter_S8x256x128x128_S1_S8x256x128_012_3_3_0_wf : ScatterDims.WF S8x256x128x128 S1 S8x256x128 [0, 1, 2] [3] [3] 0

variable [Facts₀]

def scatter_S8x256x128x128_S1_S8x256x128_012_3_3_0 : ScatterDims S8x256x128x128 S1 S8x256x128 where
  updateWindowDims := [0, 1, 2]
  insertedWindowDims := [3]
  scatterDimsToOperandDims := [3]
  indexVectorDim := 0
  wf := scatter_S8x256x128x128_S1_S8x256x128_012_3_3_0_wf

class Facts : Prop extends Facts₀ where

variable [Facts]
-- ==== Proof.PoolSpec.lean ====
/-
  The function both programs compute: guided max pooling over windows of length two along the last axis.

  For `x, g : [8, 256, 128, 128]` the result at `(b, c, h, w)` is
      max (x[b, c, h, w]) (g[b, c, h, w] · x[b, c, h, w − 1])     for w ≥ 1,
      max (x[b, c, h, 0]) (the most negative finite f32)           for w = 0.
  The kernel works on the array viewed as `[262144, 128]` rows (the three leading axes merged, the last axis whole), so
  the function is stated on rows first (`pooledRows`, for any number of rows: a block of rows and the whole array are
  both instances) and the rank-4 function (`pooled`) is that function between the two changes of view. Row-major
  order keeps the last axis, so `pooled` read at `(b, c, h, w)` is the formula above (`pooled_apply`). Nothing here
  depends on what the arithmetic means: the same three operations appear on both sides.
-/
import Idealize.ShloMosaic.Lib.ValueIdx
import Idealize.ShloMosaic.Lib.Pipeline.Value
import Idealize.ShloMosaic.PureOps

noncomputable section

namespace Cert.Pool

open Idealize.ShloMosaic Idealize.ShloMosaic.ValueIdx

variable {F : FTy → Type} [FloatOps F]

/-- The array as the programs take it, and as the kernel views it. -/
abbrev Full : Shape := ⟨4, ![8, 256, 128, 128]⟩
abbrev Rows : Shape := ⟨2, ![262144, 128]⟩

/-- The candidate that switches the left neighbour off in column 0: the most negative finite f32. -/
def sentinel : F .f32 := FloatOps.ofBits .f32 0xFF7FFFFF#32

/-- The column to the left, taken around the end (column 0's is column 127; the value read there is never used). -/
def leftCol (q : Fin 128) : Fin 128 := ⟨(q.val + 127) % 128, Nat.mod_lt _ (by decide)⟩

theorem leftCol_val (q : Fin 128) : (leftCol q).val = (q.val + 127) % 128 := rfl

/-- Past column 0 the column to the left is the previous one. -/
theorem leftCol_val_of_pos (q : Fin 128) (hq : q.val ≠ 0) : (leftCol q).val + 1 = q.val := by
  have := q.isLt; rw [leftCol_val]; omega

/-- One element of the result from the element `xq`, its left neighbour `xl` and the guide `gq`, in column `q`. -/
def poolElt (xq xl gq : F .f32) (q : Fin 128) : F .f32 :=
  FloatOps.maximumf xq (if q.val = 0 then sentinel else FloatOps.mulf gq xl)

/-- The result on `n` rows of 128 columns. -/
def pooledRows {n : Nat} (x g : (⟨2, ![n, 128]⟩ : Shape).Idx → F .f32) : (⟨2, ![n, 128]⟩ : Shape).Idx → F .f32 :=
  fun i => poolElt (x i) (x (ix2 (n0 := n) (n1 := 128) (i 0) (leftCol (i 1)))) (g i) (i 1)

theorem pooledRows_apply {n : Nat} (x g : (⟨2, ![n, 128]⟩ : Shape).Idx → F .f32) (p : Fin n) (q : Fin 128) :
    pooledRows x g (ix2 p q) = poolElt (x (ix2 p q)) (x (ix2 p (leftCol q))) (g (ix2 p q)) q := rfl

/-- The result on the rank-4 arrays: the rows' result between the two changes of view. -/
def pooled (hc : Full.ShapeCasts Rows) (hc' : Rows.ShapeCasts Full) (x g : Full.Idx → F .f32) : Full.Idx → F .f32 :=
  shapeCast Full (pooledRows (shapeCast Rows x hc) (shapeCast Rows g hc)) hc'

/-- The row that holds `(b, c, h, ·)`. -/
def rowOf (b : Fin 8) (c : Fin 256) (h : Fin 128) : Fin 262144 :=
  ⟨(b.val * 256 + c.val) * 128 + h.val, by have := b.isLt; have := c.isLt; have := h.isLt; omega⟩

/-- The array viewed as rows, at row `rowOf b c h`, column `w`, is the array at `(b, c, h, w)`. -/
theorem rows_apply {α : Type} (hc : Full.ShapeCasts Rows) (x : Full.Idx → α) (b : Fin 8) (c : Fin 256) (h : Fin 128) (w : Fin 128) :
    shapeCast Rows x hc (ix2 (rowOf b c h) w) = x (ix4 b c h w) :=
  shapeCast_apply x hc (ix2 (rowOf b c h) w) (ix4 b c h w) (by
    rw [Shape.rowMajor_val_two, Shape.rowMajor_val_four]
    show ((b.val * 256 + c.val) * 128 + h.val) * 128 + w.val = ((b.val * 256 + c.val) * 128 + h.val) * 128 + w.val
    rfl)

/-- THE RESULT AT `(b, c, h, w)`: the element against the guide times its left neighbour in the SAME `(b, c, h)` line, or
    against the sentinel in column 0. -/
theorem pooled_apply (hc : Full.ShapeCasts Rows) (hc' : Rows.ShapeCasts Full) (x g : Full.Idx → F .f32)
    (b : Fin 8) (c : Fin 256) (h : Fin 128) (w : Fin 128) :
    pooled hc hc' x g (ix4 b c h w)
      = poolElt (x (ix4 b c h w)) (x (ix4 b c h (leftCol w))) (g (ix4 b c h w)) w := by
  unfold pooled
  rw [shapeCast_apply _ hc' (ix4 b c h w) (ix2 (rowOf b c h) w) (by
    rw [Shape.rowMajor_val_two, Shape.rowMajor_val_four]
    show ((b.val * 256 + c.val) * 128 + h.val) * 128 + w.val = ((b.val * 256 + c.val) * 128 + h.val) * 128 + w.val
    rfl)]
  rw [pooledRows_apply, rows_apply hc x, rows_apply hc x, rows_apply hc g]

end Cert.Pool

end
-- ==== Proof.KernelBody.lean ====
/-
  The kernel's body on one block of rows is the pooling function on that block.

  The body loads a block `x` of 16384 rows and the guide's block `g`, rotates `x` by one along the columns (column `q`
  of the rotated block is column `q − 1` of `x`, column 0 is column 127), multiplies by `g`, replaces column 0 of the
  product by the sentinel (a select on the column number against 0) and stores the maximum with `x`: at `(p, q)` that is
  `poolElt` of `x[p, q]`, `x[p, q − 1]` and `g[p, q]`. The rotation stays inside a row, so the block of the result
  depends on the same rows of the inputs only.
-/
import proofs.«129492_j19902878449864_2_alg».proof.Proof.Gen.KernelIdeal.Skeleton
import proofs.«129492_j19902878449864_2_alg».proof.Proof.PoolSpec
import Idealize.ShloMosaic.Lib.KernelVsHost

noncomputable section

namespace Cert.KernelIdeal.BodyValue

open Cert.KernelIdeal Cert.KernelIdeal.Gen Idealize.ShloMosaic Idealize.ShloMosaic.ValueIdx Cert.Pool

variable {F : FTy → Type} [FloatOps F]

/-- The select's condition: the column number, as a 32-bit word, equals 0 exactly in column 0. -/
theorem col_eq_zero (q : Fin 128) :
    IntOp.cmpi .eq (BitVec.ofNat 32 q.val) 0#32 = if q.val = 0 then 1#1 else 0#1 :=
  (by decide : ∀ q : Fin 128, IntOp.cmpi .eq (BitVec.ofNat 32 q.val) 0#32 = if q.val = 0 then 1#1 else 0#1) q

/-- The block rotated by one along the columns reads, at `(p, q)`, the block at `(p, leftCol q)`. -/
theorem rotated_apply {α : Type} (x : S16384x128.Idx → α) (hr : S16384x128.Rotates 1 none) (p : Fin 16384) (q : Fin 128) :
    dynamicRotate 1 1#32 none x hr (ix2 p q) = x (ix2 p (leftCol q)) :=
  dynamicRotate_apply (1 : Fin 2) 1#32 x hr (ix2 p q) (ix2 p (leftCol q)) (fun e => by
    match e with
    | ⟨0, _⟩ => rfl
    | ⟨1, _⟩ =>
      show (q.val + 127) % 128 = (q.val + 128 - 1 % 128) % 128
      rfl)

/-- THE BODY'S STORED VALUE AT `(p, q)`. -/
theorem payload_apply (x0 x1 : Vec F S16384x128 .f32) (p : Fin 16384) (q : Fin 128) :
    k0_pay1 x0 x1 (ix2 p q) = poolElt (x0 (ix2 p q)) (x0 (ix2 p (leftCol q))) (x1 (ix2 p q)) q := by
  unfold k0_pay1
  simp only [shapeCast_self]
  show FloatOps.maximumf (x0 (ix2 p q))
      (Scalar.select (IntOp.cmpi .eq (iota .tc S16384x128 32 [1] iota_S16384x128_d1_w32 (ix2 p q)) 0#32)
        (FloatOps.ofBits .f32 0xFF7FFFFF#32)
        (FloatOps.mulf (x1 (ix2 p q)) (dynamicRotate 1 1#32 none x0 rotates_S16384x128_d1 (ix2 p q)))) = _
  rw [iota_single_apply, rotated_apply]
  show FloatOps.maximumf (x0 (ix2 p q))
      (Scalar.select (IntOp.cmpi .eq (BitVec.ofNat 32 q.val) 0#32) (FloatOps.ofBits .f32 0xFF7FFFFF#32)
        (FloatOps.mulf (x1 (ix2 p q)) (x0 (ix2 p (leftCol q))))) = _
  rw [col_eq_zero]
  unfold poolElt sentinel
  by_cases hq : q.val = 0
  · rw [if_pos hq, if_pos hq, select_one]
  · rw [if_neg hq, if_neg hq, select_zero]

/-- The body's stored block is the pooling function of the two loaded blocks. -/
theorem payload_eq (x0 x1 : Vec F S16384x128 .f32) : k0_pay1 x0 x1 = pooledRows (n := 16384) x0 x1 := by
  funext j
  obtain ⟨p, q, rfl⟩ : ∃ (p : Fin 16384) (q : Fin 128), j = ix2 p q := ⟨j 0, j 1, eq_ix2 j⟩
  rw [payload_apply, pooledRows_apply]

end Cert.KernelIdeal.BodyValue

end
-- ==== Proof.KernelValue.lean ====
/-
  The kernel's program ends with the pooling function of its two arguments in its result.

  The program views both arguments as `[262144, 128]` rows, runs the body on 16 blocks of 16384 rows — grid point `t`
  reads rows `16384·t … 16384·t + 16383` of both inputs and writes the same rows of the output — and views the output
  as `[8, 256, 128, 128]` again. A block of the pooling function on rows depends on the same rows of the inputs only, so
  what point `t` writes back is block `t` of the pooling function of the WHOLE row arrays; the 16 blocks cover every
  row, so the output array is that function, and the result is `Pool.pooled` of the arguments by its definition.
-/
import proofs.«129492_j19902878449864_2_alg».proof.Proof.Gen.KernelIdeal.Frame
import proofs.«129492_j19902878449864_2_alg».proof.Proof.KernelBody
import proofs.«129492_j19902878449864_2_alg».proof.Proof.PoolSpec
import Idealize.ShloMosaic.Lib.Pipeline.Value
import Idealize.ShloMosaic.Lib.StableHlo.Run

noncomputable section

namespace Cert.KernelIdeal.PoolValue

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable {F : FTy → Type} [FloatOps F]

/-! ## A block of the rows' function -/

/-- The pooling function on a block of 16384 rows that sits at row offset `off` of the whole row arrays (`emb`: same
    column, row `off` more) is the pooling function of the whole arrays read inside the block: a row's result reads that
    row only. -/
theorem rows_of_block (a0 a1 : Rows.Idx → F .f32) (x0 x1 : (⟨2, ![16384, 128]⟩ : Shape).Idx → F .f32)
    (emb : (⟨2, ![16384, 128]⟩ : Shape).Idx → Rows.Idx) (off : Nat)
    (hemb0 : ∀ y, (emb y 0).val = off + (y 0).val) (hemb1 : ∀ y, (emb y 1).val = (y 1).val)
    (h0 : ∀ y, x0 y = a0 (emb y)) (h1 : ∀ y, x1 y = a1 (emb y)) (y : (⟨2, ![16384, 128]⟩ : Shape).Idx) :
    pooledRows (n := 16384) x0 x1 y = pooledRows (n := 262144) a0 a1 (emb y) := by
  obtain ⟨p, q, rfl⟩ : ∃ (p : Fin 16384) (q : Fin 128), y = ix2 p q := ⟨y 0, y 1, eq_ix2 y⟩
  have hp : off + p.val < 262144 := by
    have h := idx2_lt0 (emb (ix2 p q)); have e := hemb0 (ix2 p q)
    have e' : (emb (ix2 p q) 0).val = off + p.val := e
    omega
  have e : ∀ q' : Fin 128, emb (ix2 p q') = ix2 (⟨off + p.val, hp⟩ : Fin 262144) q' := fun q' => by
    funext a; refine Fin.ext ?_
    match a with
    | ⟨0, _⟩ => exact hemb0 (ix2 p q')
    | ⟨1, _⟩ => exact hemb1 (ix2 p q')
  rw [pooledRows_apply, h0, h0, h1, e q, e (leftCol q), pooledRows_apply]

/-! ## From the blocks to the output array -/

variable (m : (ℓ : Loc nD τ sig) → Buf (Elt F) ℓ) (ρ : Dev nD → PrngReg)

theorem hz : (![0, 0] : Fin 2 → Nat) = fun _ => 0 := funext fun a => by fin_cases a <;> rfl

/-- The three windows' index maps, decided over the 16 points: point `t` stages block-row `t`, block-column 0, of each. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the pooling function of the two row arrays as the region finds them. -/
theorem flushed_eq (c : Dev nD) (t : Fin cfg0.N) :
    (dats m 0 c).flushed 2 t
      = ((cfg0.win 2).blk t).view.read (Elt F) (pooledRows (n := 262144) (V m c main_v0) (V m c main_v1)) := by
  show (cfg0.win 2).cut (grid0.coords t) ((dats m 0 c).after 2 t) = _
  rw [after0_2]
  unfold out0_2
  rw [View.canon_unit_zero hz]
  simp only [View.ld_unit_zero (S := S16384x128) hz]
  rw [BodyValue.payload_eq]
  obtain ⟨e0, e1, e2, e3, e4, e5⟩ := idx_facts t
  funext j
  show pooledRows (n := 16384) (iblk m c 0 t) (iblk m c 1 t) j
    = pooledRows (n := 262144) (V m c main_v0) (V m c main_v1) (((cfg0.win 2).blk t).view.emb j)
  exact rows_of_block (V m c main_v0) (V m c main_v1) (iblk m c 0 t) (iblk m c 1 t) (((cfg0.win 2).blk t).view.emb) (t.val * 16384)
    (fun y => by
      show win0_2.index t (0 : Fin 2) * 16384 + 1 * (y 0).val = t.val * 16384 + (y 0).val
      omega)
    (fun y => by
      show win0_2.index t (1 : Fin 2) * 128 + 1 * (y 1).val = (y 1).val
      omega)
    (fun y => by
      show V m c main_v0 (((cfg0.win 0).blk t).view.emb y) = V m c main_v0 (((cfg0.win 2).blk t).view.emb y)
      refine congrArg _ (funext fun a => Fin.ext ?_)
      match a with
      | ⟨0, _⟩ =>
        show win0_0.index t (0 : Fin 2) * 16384 + 1 * (y 0).val = win0_2.index t (0 : Fin 2) * 16384 + 1 * (y 0).val
        omega
      | ⟨1, _⟩ =>
        show win0_0.index t (1 : Fin 2) * 128 + 1 * (y 1).val = win0_2.index t (1 : Fin 2) * 128 + 1 * (y 1).val
        omega)
    (fun y => by
      show V m c main_v1 (((cfg0.win 1).blk t).view.emb y) = V m c main_v1 (((cfg0.win 2).blk t).view.emb y)
      refine congrArg _ (funext fun a => Fin.ext ?_)
      match a with
      | ⟨0, _⟩ =>
        show win0_1.index t (0 : Fin 2) * 16384 + 1 * (y 0).val = win0_2.index t (0 : Fin 2) * 16384 + 1 * (y 0).val
        omega
      | ⟨1, _⟩ =>
        show win0_1.index t (1 : Fin 2) * 128 + 1 * (y 1).val = win0_2.index t (1 : Fin 2) * 128 + 1 * (y 1).val
        omega)
    j

/-- An index of the output array is in point `t`'s block iff each coordinate is in the block's range on its axis. -/
theorem mem_blk (t : Fin cfg0.N) (i : S262144x128.Idx) :
    i ∈ ((cfg0.win 2).blk t).view.set ↔ ∀ a : Fin 2, win0_2.index t a * S16384x128.size a ≤ (i a).val
      ∧ (i a).val < win0_2.index t a * S16384x128.size a + S16384x128.size a := by
  show i ∈ ((View.whole main_v2).slice (win0_2.rect t)).set ↔ _
  rw [View.set_slice_whole, Rect.mem_set_unit]
  exact Iff.rfl

/-- Every row is in some point's block: row `r` in the block of point `r / 16384`. -/
theorem cover (i : S262144x128.Idx) :
    ∃ t : Fin cfg0.N, (cfg0.win 2).flush t = true ∧ i ∈ ((cfg0.win 2).blk t).view.set := by
  have hi0 : (i 0).val < 262144 := idx2_lt0 i
  have hi1 : (i 1).val < 128 := idx2_lt1 i
  have hN : grid0.N = 16 := N_0
  have ht : (i 0).val / 16384 < grid0.N := by rw [hN]; omega
  obtain ⟨e0, e1, e2, e3, e4, e5⟩ := idx_facts ⟨(i 0).val / 16384, ht⟩
  have e4' : win0_2.index ⟨(i 0).val / 16384, ht⟩ (0 : Fin 2) = (i 0).val / 16384 := e4
  refine ⟨⟨(i 0).val / 16384, ht⟩, flush0_2 _, ?_⟩
  rw [mem_blk]
  intro a
  match a with
  | ⟨0, _⟩ =>
    show win0_2.index ⟨(i 0).val / 16384, ht⟩ (0 : Fin 2) * 16384 ≤ (i 0).val
      ∧ (i 0).val < win0_2.index ⟨(i 0).val / 16384, ht⟩ (0 : Fin 2) * 16384 + 16384
    omega
  | ⟨1, _⟩ =>
    show win0_2.index ⟨(i 0).val / 16384, ht⟩ (1 : Fin 2) * 128 ≤ (i 1).val
      ∧ (i 1).val < win0_2.index ⟨(i 0).val / 16384, ht⟩ (1 : Fin 2) * 128 + 128
    omega

/-- THE OUTPUT ARRAY after the region: the pooling function of the two row arrays. -/
theorem final (c : Dev nD) :
    (dats m 0 c).arrAt 2 cfg0.N = pooledRows (n := 262144) (V m c main_v0) (V m c main_v1) :=
  (dats m 0 c).arrAt_eq_of_cover 2 _ (fun t _ => flushed_eq m c t) cover

/-! ## The views before and after the region -/

/-- The first row array the region finds is the first argument viewed as rows … -/
theorem V_main_v0 (c : Dev nD) :
    (V m c main_v0 : S262144x128.Idx → F .f32)
      = shapeCast S262144x128 (m ((c : Thread nD τ).loc main_arg0)) shapeCasts_S8x256x128x128_S262144x128 := by
  show StableHlo.after hostOps0 (fun b => m (c, b)) (Proc.devRef .tc main_v0) = _
  after_results
  rfl

/-- … and the second the second argument. -/
theorem V_main_v1 (c : Dev nD) :
    (V m c main_v1 : S262144x128.Idx → F .f32)
      = shapeCast S262144x128 (m ((c : Thread nD τ).loc main_arg1)) shapeCasts_S8x256x128x128_S262144x128 := by
  show StableHlo.after hostOps0 (fun b => m (c, b)) (Proc.devRef .tc main_v1) = _
  after_results
  rfl

/-- THE RESULT: the line after the region views the output array as rank 4 again, which makes the result the pooling
    function of the two arguments. -/
theorem tail_main_v3 (c : Dev nD) :
    Pipeline.afterTail₀ cfgs (dats m) 0 (V0 m) [hostOps1] c main_v3
      = pooled shapeCasts_S8x256x128x128_S262144x128 shapeCasts_S262144x128_S8x256x128x128
          (m ((c : Thread nD τ).loc main_arg0)) (m ((c : Thread nD τ).loc main_arg1)) := by
  unfold Pipeline.afterTail₀
  show StableHlo.after hostOps1 _ (Proc.devRef .tc main_v3) = _
  after_results
  show shapeCast S8x256x128x128 (Pipeline.withArrays spec0 c (V0 m c) (fun w => (dats m 0 c).arrAt w cfg0.N)
      (Proc.devRef .tc main_v2)) shapeCasts_S262144x128_S8x256x128x128 = _
  have hw : Pipeline.withArrays spec0 c (V0 m c) (fun w => (dats m 0 c).arrAt w cfg0.N) (Proc.devRef .tc main_v2)
      = pooledRows (n := 262144) (V m c main_v0) (V m c main_v1) :=
    (Pipeline.withArrays_arr spec0 launch0.win.arr_inj c _ _ 2).trans (final m c)
  rw [hw, V_main_v0, V_main_v1]
  rfl

/-! ## The run -/

/-- Every weakly fair execution of the program terminates with its result at the pooling function of its two arguments,
    the arguments unchanged. -/
theorem run : θ_run defs (onTc (τ := τ) (main (F := F))) ⟨m, fun _ => 0, ρ⟩ fun r => ∀ c : Dev nD,
      r.2.mem ((c : Thread nD τ).loc main_v3)
        = pooled shapeCasts_S8x256x128x128_S262144x128 shapeCasts_S262144x128_S8x256x128x128
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (tail_main_v3 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.PoolValue

end
-- ==== Proof.LibScatterSet.lean ====
/-
  A host scatter whose body returns the update (jnp's `x.at[…].set(u)`), read at an index.

  `Host.scatter` is a left fold over the update indices in row-major order: each update whose result index lies inside
  the operand replaces the element there. Read at ONE operand index `i` the fold is decided by which updates land on
  `i`: none — the operand's element survives —, or exactly one — its update is what is left. Both facts are proved
  here for any dimension numbers, and then specialised to the scatter that writes one whole COLUMN of the last axis of a
  rank-4 operand, `x.at[..., k].set(u)`: operand `[A, B, C, W]`, one scalar scatter index, updates `[A, B, C]`.
-/
import Idealize.ShloMosaic.Lib.ValueIdx
import Idealize.ShloMosaic.PureOps

noncomputable section

namespace Cert.ScatterSet

open Idealize.ShloMosaic Idealize.ShloMosaic.ValueIdx

/-! ## The fold at one operand index -/

section Fold
variable {s si u : Shape} {w : Nat} {α : Type} (d : ScatterDims s si u) (f : α → α → α) (x : s.Idx → α) (idx : IVec si w)
  (upd : u.Idx → α) (i : s.Idx)

/-- The fold over ANY list of update positions, at an operand index on which none of them lands: the start value. -/
theorem fold_of_forall_ne (l : List (Fin u.numel)) (r : s.Idx → α)
    (h : ∀ n ∈ l, d.resultIdx? (u.rowMajor.symm n) idx ≠ some i) :
    (l.foldl (fun r n =>
      match d.resultIdx? (u.rowMajor.symm n) idx with
      | some k => fun i' => if i' = k then f (r k) (upd (u.rowMajor.symm n)) else r i'
      | none => r) r) i = r i := by
  induction l generalizing r with
  | nil => rfl
  | cons n l ih =>
    rw [List.foldl_cons, ih _ (fun n' hn' => h n' (List.mem_cons_of_mem _ hn'))]
    have hn := h n (List.mem_cons_self ..)
    generalize d.resultIdx? (u.rowMajor.symm n) idx = o at hn ⊢
    cases o with
    | none => rfl
    | some k =>
      have hne : i ≠ k := fun e => hn (by rw [e])
      show (if i = k then _ else r i) = r i
      rw [if_neg hne]

/-- NO UPDATE LANDS on `i`: the scatter leaves the operand's element there, whatever the body. -/
theorem scatter_apply_of_forall_ne (h : ∀ j : u.Idx, d.resultIdx? j idx ≠ some i) :
    Host.scatter d f x idx upd i = x i := by
  unfold Host.scatter
  exact fold_of_forall_ne d f idx upd i _ x (fun n _ => h _)

/-- The fold of the body that returns the update, over a list without repeats holding the one position `n₀` whose
    update lands on `i`: that update. -/
theorem fold_set_of_unique (l : List (Fin u.numel)) (hl : l.Nodup) (r : s.Idx → α) (n₀ : Fin u.numel) (hn₀ : n₀ ∈ l)
    (h₀ : d.resultIdx? (u.rowMajor.symm n₀) idx = some i)
    (huniq : ∀ n ∈ l, d.resultIdx? (u.rowMajor.symm n) idx = some i → n = n₀) :
    (l.foldl (fun r n =>
      match d.resultIdx? (u.rowMajor.symm n) idx with
      | some k => fun i' => if i' = k then (fun _ b => b) (r k) (upd (u.rowMajor.symm n)) else r i'
      | none => r) r) i = upd (u.rowMajor.symm n₀) := by
  induction l generalizing r with
  | nil => exact absurd hn₀ (List.not_mem_nil)
  | cons n l ih =>
    rw [List.foldl_cons]
    rw [List.nodup_cons] at hl
    by_cases hnn : n = n₀
    · subst hnn
      rw [fold_of_forall_ne d (fun _ b => b) idx upd i l _ (fun n' hn' e =>
        hl.1 (by rw [huniq n' (List.mem_cons_of_mem _ hn') e] at hn'; exact hn'))]
      rw [h₀]
      show (if i = i then upd (u.rowMajor.symm n) else r i) = _
      rw [if_pos rfl]
    · have hmem : n₀ ∈ l := by
        rcases List.mem_cons.mp hn₀ with e | e
        · exact absurd e.symm hnn
        · exact e
      exact ih hl.2 _ hmem (fun n' hn' => huniq n' (List.mem_cons_of_mem _ hn'))

/-- EXACTLY ONE UPDATE `j₀` LANDS on `i`, and the body returns the update: the scatter leaves that update there. -/
theorem scatter_set_apply_of_unique (j₀ : u.Idx) (h₀ : d.resultIdx? j₀ idx = some i)
    (huniq : ∀ j : u.Idx, d.resultIdx? j idx = some i → j = j₀) :
    Host.scatter d (fun _ b => b) x idx upd i = upd j₀ := by
  unfold Host.scatter
  have e₀ : u.rowMajor.symm (u.rowMajor j₀) = j₀ := Equiv.symm_apply_apply _ _
  exact (fold_set_of_unique d idx upd i (List.finRange u.numel) (List.nodup_finRange _) x (u.rowMajor j₀) (List.mem_finRange _)
    (by rw [e₀]; exact h₀)
    (fun n _ hn => by
      have := huniq _ hn
      rw [← this]; exact (Equiv.apply_symm_apply _ _).symm)).trans (congrArg upd e₀)

end Fold

/-! ## One column of the last axis of a rank-4 operand: `x.at[..., k].set(u)` -/

/-- The dimension numbers of the scatter that writes ONE COLUMN of the last axis: operand `[A, B, C, W]`, ONE scalar
    scatter index (shape `[1]`, the index vector's axis its only one), updates `[A, B, C]` — every axis of the updates a
    window axis, the operand's last axis inserted and the one the scatter index names. The conditions `wf` are decided
    on a program's literal shapes. -/
abbrev colSetDims (A B C W : Nat)
    (wf : ScatterDims.WF ⟨4, ![A, B, C, W]⟩ ⟨1, ![1]⟩ ⟨3, ![A, B, C]⟩ [0, 1, 2] [3] [3] 0) :
    ScatterDims ⟨4, ![A, B, C, W]⟩ ⟨1, ![1]⟩ ⟨3, ![A, B, C]⟩ where
  updateWindowDims := [0, 1, 2]
  insertedWindowDims := [3]
  scatterDimsToOperandDims := [3]
  indexVectorDim := 0
  wf := wf

section ColSet
variable {A B C W w : Nat} (wf : ScatterDims.WF ⟨4, ![A, B, C, W]⟩ ⟨1, ![1]⟩ ⟨3, ![A, B, C]⟩ [0, 1, 2] [3] [3] 0)
  (idx : IVec ⟨1, ![1]⟩ w) (a : Fin A) (b : Fin B) (c : Fin C)

/-- On the operand's last axis the window of every update starts at the one scatter index, read signed. -/
theorem colSet_start_three : (colSetDims A B C W wf).start (ix3 a b c) idx 3 = (idx (ix1 0)).toInt := by
  unfold ScatterDims.start
  rw [dif_pos (show (3 : Fin 4) ∈ (colSetDims A B C W wf).scatterDimsToOperandDims from List.mem_singleton.mpr rfl)]
  have hsi : (colSetDims A B C W wf).siIdx (ix3 a b c)
      ⟨List.idxOf (3 : Fin 4) (colSetDims A B C W wf).scatterDimsToOperandDims,
        List.idxOf_lt_length_iff.2 (List.mem_singleton.mpr rfl)⟩ = ix1 0 := by
    funext e; refine Fin.ext ?_
    match e with
    | ⟨0, _⟩ => rfl
  rw [hsi]

/-- On the three axes the scatter index does not name the window starts at `0`. -/
theorem colSet_start_zero : (colSetDims A B C W wf).start (ix3 a b c) idx 0 = 0 := by
  unfold ScatterDims.start
  have hne : (0 : Fin 4) ∉ [(3 : Fin 4)] := by decide
  rw [dif_neg (show (0 : Fin 4) ∉ (colSetDims A B C W wf).scatterDimsToOperandDims from hne)]
theorem colSet_start_one : (colSetDims A B C W wf).start (ix3 a b c) idx 1 = 0 := by
  unfold ScatterDims.start
  have hne : (1 : Fin 4) ∉ [(3 : Fin 4)] := by decide
  rw [dif_neg (show (1 : Fin 4) ∉ (colSetDims A B C W wf).scatterDimsToOperandDims from hne)]
theorem colSet_start_two : (colSetDims A B C W wf).start (ix3 a b c) idx 2 = 0 := by
  unfold ScatterDims.start
  have hne : (2 : Fin 4) ∉ [(3 : Fin 4)] := by decide
  rw [dif_neg (show (2 : Fin 4) ∉ (colSetDims A B C W wf).scatterDimsToOperandDims from hne)]

/-- The window coordinate of update `(a, b, c)` on the operand's first three axes is the update's own coordinate … -/
theorem colSet_window_zero : (colSetDims A B C W wf).window (ix3 a b c) 0 = a.val := by
  unfold ScatterDims.window
  have hk : (0 : Fin 4) ∈ (List.finRange 4).filter (· ∉ [(3 : Fin 4)]) := by decide
  rw [dif_pos (show (0 : Fin 4) ∈ (colSetDims A B C W wf).sKept from hk)]
  rfl
theorem colSet_window_one : (colSetDims A B C W wf).window (ix3 a b c) 1 = b.val := by
  unfold ScatterDims.window
  have hk : (1 : Fin 4) ∈ (List.finRange 4).filter (· ∉ [(3 : Fin 4)]) := by decide
  rw [dif_pos (show (1 : Fin 4) ∈ (colSetDims A B C W wf).sKept from hk)]
  rfl
theorem colSet_window_two : (colSetDims A B C W wf).window (ix3 a b c) 2 = c.val := by
  unfold ScatterDims.window
  have hk : (2 : Fin 4) ∈ (List.finRange 4).filter (· ∉ [(3 : Fin 4)]) := by decide
  rw [dif_pos (show (2 : Fin 4) ∈ (colSetDims A B C W wf).sKept from hk)]
  rfl
/-- … and `0` on the last axis, which is inserted. -/
theorem colSet_window_three : (colSetDims A B C W wf).window (ix3 a b c) 3 = 0 := by
  unfold ScatterDims.window
  have hk : (3 : Fin 4) ∉ (List.finRange 4).filter (· ∉ [(3 : Fin 4)]) := by decide
  rw [dif_neg (show (3 : Fin 4) ∉ (colSetDims A B C W wf).sKept from hk)]

/-- WHERE AN UPDATE LANDS: when the scatter index, read signed, is the column `k`, update `(a, b, c)` lands on
    operand element `(a, b, c, k)`. -/
theorem colSet_lands (k : Fin W) (hk : (idx (ix1 0)).toInt = (k.val : Int)) :
    (colSetDims A B C W wf).resultIdx? (ix3 a b c) idx = some (ix4 a b c k) := by
  have s0 := colSet_start_zero wf idx a b c
  have s1 := colSet_start_one wf idx a b c
  have s2 := colSet_start_two wf idx a b c
  have s3 := colSet_start_three wf idx a b c
  have w0 := colSet_window_zero wf a b c
  have w1 := colSet_window_one wf a b c
  have w2 := colSet_window_two wf a b c
  have w3 := colSet_window_three wf a b c
  have hin : ∀ e : Fin 4,
      0 ≤ (colSetDims A B C W wf).start (ix3 a b c) idx e + ((colSetDims A B C W wf).window (ix3 a b c) e : Nat)
      ∧ (colSetDims A B C W wf).start (ix3 a b c) idx e + ((colSetDims A B C W wf).window (ix3 a b c) e : Nat)
          < (((⟨4, ![A, B, C, W]⟩ : Shape).size e : Nat) : Int) := by
    intro e
    match e with
    | ⟨0, _⟩ =>
      show 0 ≤ (colSetDims A B C W wf).start (ix3 a b c) idx 0 + ((colSetDims A B C W wf).window (ix3 a b c) 0 : Nat)
        ∧ (colSetDims A B C W wf).start (ix3 a b c) idx 0 + ((colSetDims A B C W wf).window (ix3 a b c) 0 : Nat) < (A : Int)
      rw [s0, w0]; have := a.isLt; omega
    | ⟨1, _⟩ =>
      show 0 ≤ (colSetDims A B C W wf).start (ix3 a b c) idx 1 + ((colSetDims A B C W wf).window (ix3 a b c) 1 : Nat)
        ∧ (colSetDims A B C W wf).start (ix3 a b c) idx 1 + ((colSetDims A B C W wf).window (ix3 a b c) 1 : Nat) < (B : Int)
      rw [s1, w1]; have := b.isLt; omega
    | ⟨2, _⟩ =>
      show 0 ≤ (colSetDims A B C W wf).start (ix3 a b c) idx 2 + ((colSetDims A B C W wf).window (ix3 a b c) 2 : Nat)
        ∧ (colSetDims A B C W wf).start (ix3 a b c) idx 2 + ((colSetDims A B C W wf).window (ix3 a b c) 2 : Nat) < (C : Int)
      rw [s2, w2]; have := c.isLt; omega
    | ⟨3, _⟩ =>
      show 0 ≤ (colSetDims A B C W wf).start (ix3 a b c) idx 3 + ((colSetDims A B C W wf).window (ix3 a b c) 3 : Nat)
        ∧ (colSetDims A B C W wf).start (ix3 a b c) idx 3 + ((colSetDims A B C W wf).window (ix3 a b c) 3 : Nat) < (W : Int)
      rw [s3, w3, hk]; have := k.isLt; omega
  unfold ScatterDims.resultIdx?
  rw [dif_pos hin]
  refine congrArg some (funext fun e => Fin.ext ?_)
  match e with
  | ⟨0, _⟩ =>
    show ((colSetDims A B C W wf).start (ix3 a b c) idx 0 + ((colSetDims A B C W wf).window (ix3 a b c) 0 : Nat)).toNat = a.val
    rw [s0, w0]; omega
  | ⟨1, _⟩ =>
    show ((colSetDims A B C W wf).start (ix3 a b c) idx 1 + ((colSetDims A B C W wf).window (ix3 a b c) 1 : Nat)).toNat = b.val
    rw [s1, w1]; omega
  | ⟨2, _⟩ =>
    show ((colSetDims A B C W wf).start (ix3 a b c) idx 2 + ((colSetDims A B C W wf).window (ix3 a b c) 2 : Nat)).toNat = c.val
    rw [s2, w2]; omega
  | ⟨3, _⟩ =>
    show ((colSetDims A B C W wf).start (ix3 a b c) idx 3 + ((colSetDims A B C W wf).window (ix3 a b c) 3 : Nat)).toNat = k.val
    rw [s3, w3, hk]; omega

/-- THE COLUMN WRITTEN: at `(a, b, c, k)`, `k` the scatter index, the scatter that returns the update leaves update
    `(a, b, c)`: it is the one update that lands there. -/
theorem scatter_colSet_apply_hit {α : Type} (x : (⟨4, ![A, B, C, W]⟩ : Shape).Idx → α) (upd : (⟨3, ![A, B, C]⟩ : Shape).Idx → α)
    (k : Fin W) (hk : (idx (ix1 0)).toInt = (k.val : Int)) :
    Host.scatter (colSetDims A B C W wf) (fun _ v => v) x idx upd (ix4 a b c k) = upd (ix3 a b c) :=
  scatter_set_apply_of_unique _ x idx upd _ (ix3 a b c) (colSet_lands wf idx a b c k hk) (fun j hj => by
    obtain ⟨a', b', c', rfl⟩ : ∃ (a' : Fin A) (b' : Fin B) (c' : Fin C), j = ix3 a' b' c' := ⟨j 0, j 1, j 2, eq_ix3 j⟩
    rw [colSet_lands wf idx a' b' c' k hk] at hj
    have e := Option.some.inj hj
    have e0 : a' = a := congrFun e 0
    have e1 : b' = b := congrFun e 1
    have e2 : c' = c := congrFun e 2
    rw [e0, e1, e2])

/-- THE OTHER COLUMNS: at `(a, b, c, q)` with `q` not the scatter index no update lands, and the operand's element
    survives, whatever the body. -/
theorem scatter_colSet_apply_miss {α : Type} (f : α → α → α) (x : (⟨4, ![A, B, C, W]⟩ : Shape).Idx → α)
    (upd : (⟨3, ![A, B, C]⟩ : Shape).Idx → α) (k : Fin W) (hk : (idx (ix1 0)).toInt = (k.val : Int)) (q : Fin W) (hq : q ≠ k) :
    Host.scatter (colSetDims A B C W wf) f x idx upd (ix4 a b c q) = x (ix4 a b c q) :=
  scatter_apply_of_forall_ne _ f x idx upd _ (fun j hj => by
    obtain ⟨a', b', c', rfl⟩ : ∃ (a' : Fin A) (b' : Fin B) (c' : Fin C), j = ix3 a' b' c' := ⟨j 0, j 1, j 2, eq_ix3 j⟩
    rw [colSet_lands wf idx a' b' c' k hk] at hj
    have e3 : k = q := congrFun (Option.some.inj hj) 3
    exact hq e3.symm)

end ColSet

end Cert.ScatterSet

end
-- ==== Proof.ReferenceValue.lean ====
/-
  The reference, read at an index, is the pooling function.

  The reference builds the left neighbours by joining a column of zeros to columns 0 … 126 of `x`, multiplies by the
  guide, overwrites column 0 of the product by the sentinel (a scatter that writes one column) and takes the maximum
  with `x`. At `(b, c, h, w)` with `w ≥ 1` the joined array reads `x[b, c, h, w − 1]` (the second piece) and the
  scatter leaves the product alone; at `w = 0` the scatter's one update for the line `(b, c, h)` lands there, so the zero
  the join put in column 0 is never read.
-/
import proofs.«129492_j19902878449864_2_alg».proof.Proof.Gen.ReferenceIdeal.Read
import proofs.«129492_j19902878449864_2_alg».proof.Proof.PoolSpec
import proofs.«129492_j19902878449864_2_alg».proof.Proof.LibScatterSet

noncomputable section

namespace Cert.ReferenceIdeal.RefValue

open Cert.ReferenceIdeal Cert.ReferenceIdeal.Gen Cert.ReferenceIdeal.Read Idealize.ShloMosaic Idealize.ShloMosaic.ValueIdx Cert.Pool

variable {F : FTy → Type} [FloatOps F]

/-- Past column 0 the joined array is `x` one column to the left: the second piece, which holds columns 0 … 126. -/
theorem shifted_apply (x0 : Full.Idx → F .f32) (b : Fin 8) (c : Fin 256) (h : Fin 128) (w : Fin 128) (hw : w.val ≠ 0) :
    val_main_v3 (F := F) x0 (ix4 b c h w) = x0 (ix4 b c h (leftCol w)) := by
  have hl := leftCol_val_of_pos w hw
  have hlt : (leftCol w).val < 127 := by have := w.isLt; omega
  unfold val_main_v3
  refine (concatenate_pair_apply_right (t := S8x256x128x128) (s₁ := S8x256x128x1) (s₂ := S8x256x128x127) (3 : Fin 4)
    (val_main_v1 (F := F)) (val_main_v2 (F := F) x0) concatenates_S8x256x128x1_S8x256x128x127_S8x256x128x128_d3
    (ix4 b c h w) rfl rfl (ix4 b c h (⟨(leftCol w).val, hlt⟩ : Fin 127)) (fun e => ?_) ?_).trans ?_
  · match e with
    | ⟨0, _⟩ => exact fun _ => rfl
    | ⟨1, _⟩ => exact fun _ => rfl
    | ⟨2, _⟩ => exact fun _ => rfl
    | ⟨3, _⟩ => exact fun hne => absurd rfl hne
  · show (leftCol w).val + 1 = w.val
    exact hl
  · rw [val_main_v2_apply]
    refine congrArg x0 (funext fun e => Fin.ext ?_)
    match e with
    | ⟨0, _⟩ => rfl
    | ⟨1, _⟩ => rfl
    | ⟨2, _⟩ => rfl
    | ⟨3, _⟩ => rfl

/-- The one scatter index is column 0. -/
theorem scatter_index : ((val_main_v5 (F := F)) (ix1 0)).toInt = (((0 : Fin 128)).val : Int) := by
  rw [val_main_v5_apply, val_main_c_apply]; rfl

/-- THE REFERENCE IS THE POOLING FUNCTION of its two arguments. -/
theorem reference_eq (hc : Full.ShapeCasts Rows) (hc' : Rows.ShapeCasts Full) (x0 x1 : Full.Idx → F .f32) :
    val_main_v8 (F := F) x0 x1 = pooled hc hc' x0 x1 := by
  funext i
  obtain ⟨b, c, h, w, rfl⟩ : ∃ (b : Fin 8) (c : Fin 256) (h : Fin 128) (w : Fin 128), i = ix4 b c h w :=
    ⟨i 0, i 1, i 2, i 3, eq_ix4 i⟩
  rw [pooled_apply, val_main_v8_apply]
  unfold poolElt
  refine congrArg (FloatOps.maximumf (x0 (ix4 b c h w))) ?_
  by_cases hw : w.val = 0
  · rw [if_pos hw]
    obtain rfl : w = 0 := Fin.ext hw
    unfold val_main_v7
    refine (ScatterSet.scatter_colSet_apply_hit scatter_S8x256x128x128_S1_S8x256x128_012_3_3_0_wf (val_main_v5 (F := F)) b c h
      (val_main_v4 (F := F) x0 x1) (val_main_v6 (F := F)) 0 scatter_index).trans ?_
    rw [val_main_v6_apply, val_main_cst_0_apply]
    rfl
  · rw [if_neg hw]
    unfold val_main_v7
    refine (ScatterSet.scatter_colSet_apply_miss scatter_S8x256x128x128_S1_S8x256x128_012_3_3_0_wf (val_main_v5 (F := F)) b c h
      (fun _ v => v) (val_main_v4 (F := F) x0 x1) (val_main_v6 (F := F)) 0 scatter_index w (fun e => hw (by rw [e]; rfl))).trans ?_
    rw [val_main_v4_apply, shifted_apply x0 b c h w hw]

end Cert.ReferenceIdeal.RefValue

end
-- ==== Proof.lean ====
/-
  Guided max pooling over windows of length two along the last axis: the kernel against its jnp reference, equal as
  functions of extended reals.

  Both programs compute, for `x, g : [8, 256, 128, 128]`,
      out[b, c, h, w] = max (x[b, c, h, w]) (g[b, c, h, w] · x[b, c, h, w − 1])   (w ≥ 1),
      out[b, c, h, 0] = max (x[b, c, h, 0]) (the most negative finite f32)
  (`Pool.pooled`, Proof/PoolSpec.lean). The kernel views the arrays as `[262144, 128]` rows, takes the left neighbour by a
  rotation of each block of rows along the columns and switches column 0 off by a select (Proof/KernelBody.lean, one
  block; Proof/KernelValue.lean, the 16 blocks and the two changes of view). The reference joins a zero column to
  columns 0 … 126 of `x` and overwrites column 0 of the product by a scatter (Proof/ReferenceValue.lean, over the scatter
  read at an index, Proof/LibScatterSet.lean). The same three operations — a product, a maximum, one literal — meet the
  same elements on both sides, so no law of the extended reals is needed and the precondition is never opened. The
  idealization rewrote nothing, so `preserves` is `True`.
-/
import proofs.«129492_j19902878449864_2_alg».proof.Defs
import proofs.«129492_j19902878449864_2_alg».proof.Proof.Gen.Kernel
import proofs.«129492_j19902878449864_2_alg».proof.Proof.Gen.Kernel.Frame
import proofs.«129492_j19902878449864_2_alg».proof.Proof.Gen.KernelIdeal
import proofs.«129492_j19902878449864_2_alg».proof.Proof.Gen.KernelIdeal.Frame
import proofs.«129492_j19902878449864_2_alg».proof.Proof.Gen.ReferenceIdeal
import proofs.«129492_j19902878449864_2_alg».proof.Proof.Gen.ReferenceIdeal.Run
import proofs.«129492_j19902878449864_2_alg».proof.Proof.Gen.ReferenceIdeal.Read
import proofs.«129492_j19902878449864_2_alg».proof.Proof.Gen.Pre_finite_inputs
import proofs.«129492_j19902878449864_2_alg».proof.Proof.KernelValue
import proofs.«129492_j19902878449864_2_alg».proof.Proof.ReferenceValue

noncomputable section

namespace Cert.Proof

open Idealize.ShloMosaic Idealize.ShloMosaic.TcCoe Idealize.SL.Sem

/-- The kernel's program runs and leaves its arguments unchanged, at the word level … -/
theorem frame_k : Cert.frame_Kernel := fun m ρ _ => Cert.Kernel.Gen.frame m ρ

/-- … and over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the pooling function of the arguments in their
    results: the kernel's by its blocks, the reference's read index by index. -/
theorem algebraic : Cert.algebraic_KernelIdeal_ReferenceIdeal := by
  intro m ρ m' ρ' _ hagree
  refine ⟨_, Cert.KernelIdeal.PoolValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq,
    Cert.ReferenceIdeal.RefValue.reference_eq Cert.KernelIdeal.Gen.shapeCasts_S8x256x128x128_S262144x128
      Cert.KernelIdeal.Gen.shapeCasts_S262144x128_S8x256x128x128,
    (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
